-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x1 : Shape := ⟨2, ![512, 1]⟩
abbrev S1 : Shape := ⟨1, ![1]⟩
abbrev S1x2 : Shape := ⟨2, ![1, 2]⟩
abbrev S2 : Shape := ⟨1, ![2]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S1x2 : S_.BroadcastsInDim S1x2 (![] : Fin 0 → Fin S1x2.rank)
  reducesTo_S1x2_S_d0_1 : S1x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S1x2 .f32) (main_arg5 : FVec F S2 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1x2 .f32 := Host.absf main_arg4
  let main_cst_6 : FVec F S_ .f32 := constant S_ .f32 0x7F800000#32
  let main_v20 : FVec F S1x2 .f32 := broadcastInDim S1x2 ![] bcast_S_S1x2 main_cst_6
  let main_v21 : IVec S1x2 1 := cmpf .olt main_v19 main_v20
  let main_c_7 : IVec S_ 1 := constantI S_ 1 1#1
  let main_v22 : IVec S_ 1 := (fun x v => Host.reduce IntOp.andi x v reducesTo_S1x2_S_d0_1 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S8192x512 .f32) (main_arg1 : FVec F S8192x8192 .f32) (main_arg2 : FVec F S512x1 .f32) (main_arg3 : FVec F S1 .f32) (main_arg4 : FVec F S1x2 .f32) (main_arg5 : FVec F S2 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x1 .f32 := Host.absf main_arg2
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_v13 main_v16
-- ==== Kernel.lean ====
abbrev S8192x512 : Shape := ⟨2, ![8192, 512]⟩
abbrev S8192x8192 : Shape := ⟨2, ![8192, 8192]⟩
abbrev S512x1 : Shape := ⟨2, ![512, 1]⟩
abbrev S1 : Shape := ⟨1, ![1]⟩
abbrev S1x2 : Shape := ⟨2, ![1, 2]⟩
abbrev S2 : Shape := ⟨1, ![2]⟩
abbrev S8192x1 : Shape := ⟨2, ![8192, 1]⟩
abbrev S1x1 : Shape := ⟨2, ![1, 1]⟩
abbrev S8192x2 : Shape := ⟨2, ![8192, 2]⟩
abbrev S1024x512 : Shape := ⟨2, ![1024, 512]⟩
abbrev S1024x1 : Shape := ⟨2, ![1024, 1]⟩
abbrev S512x8192 : Shape := ⟨2, ![512, 8192]⟩
abbrev S512x2 : Shape := ⟨2, ![512, 2]⟩

abbrev nBuf : Space → Nat
  | .hbm => 11
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x1, .f32⟩
  | .hbm, ⟨3, _⟩ => ⟨S1, .f32⟩
  | .hbm, ⟨4, _⟩ => ⟨S1x2, .f32⟩
  | .hbm, ⟨5, _⟩ => ⟨S2, .f32⟩
  | .hbm, ⟨6, _⟩ => ⟨S8192x1, .f32⟩
  | .hbm, ⟨7, _⟩ => ⟨S1x1, .f32⟩
  | .hbm, ⟨8, _⟩ => ⟨S8192x1, .f32⟩
  | .hbm, ⟨9, _⟩ => ⟨S1x2, .f32⟩
  | .hbm, ⟨10, _⟩ => ⟨S8192x2, .f32⟩
  | .local _ .vmem, ⟨0, _⟩ => ⟨S1024x512, .f32⟩
  | .local _ .vmem, ⟨1, _⟩ => ⟨S1024x512, .f32⟩
  | .local _ .vmem, ⟨2, _⟩ => ⟨S512x1, .f32⟩
  | .local _ .vmem, ⟨3, _⟩ => ⟨S1024x1, .f32⟩
  | .local _ .vmem, ⟨4, _⟩ => ⟨S1024x1, .f32⟩
  | .local _ .vmem, ⟨5, _⟩ => ⟨S512x8192, .f32⟩
  | .local _ .vmem, ⟨6, _⟩ => ⟨S512x8192, .f32⟩
  | .local _ .vmem, ⟨7, _⟩ => ⟨S8192x1, .f32⟩
  | .local _ .vmem, ⟨8, _⟩ => ⟨S1x1, .f32⟩
  | .local _ .vmem, ⟨9, _⟩ => ⟨S512x1, .f32⟩
  | .local _ .vmem, ⟨10, _⟩ => ⟨S512x1, .f32⟩
  | .local _ .vmem, ⟨11, _⟩ => ⟨S512x8192, .f32⟩
  | .local _ .vmem, ⟨12, _⟩ => ⟨S512x8192, .f32⟩
  | .local _ .vmem, ⟨13, _⟩ => ⟨S8192x1, .f32⟩
  | .local _ .vmem, ⟨14, _⟩ => ⟨S1x2, .f32⟩
  | .local _ .vmem, ⟨15, _⟩ => ⟨S1x2, .f32⟩
  | .local _ .vmem, ⟨16, _⟩ => ⟨S512x2, .f32⟩
  | .local _ .vmem, ⟨17, _⟩ => ⟨S512x2, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S1_S1x1 : S1.ShapeCasts S1x1
  shapeCasts_S2_S1x2 : S2.ShapeCasts S1x2
  inb_S1024x512_S1024x512_0_0 : ∀ a, (![0, 0] : Fin 2 → Nat) a + S1024x512.size a ≤ S1024x512.size a
  h_S1024x512 : 0 < S1024x512.numel
  inb_S512x1_S512x1_0_0 : ∀ a, (![0, 0] : Fin 2 → Nat) a + S512x1.size a ≤ S512x1.size a
  h_S512x1 : 0 < S512x1.numel
  inb_S1024x1_S1024x1_0_0 : ∀ a, (![0, 0] : Fin 2 → Nat) a + S1024x1.size a ≤ S1024x1.size a
  h_S1024x1 : 0 < S1024x1.numel
  inb_S512x8192_S512x8192_0_0 : ∀ a, (![0, 0] : Fin 2 → Nat) a + S512x8192.size a ≤ S512x8192.size a
  h_S512x8192 : 0 < S512x8192.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x2_S1x2_0_0 : ∀ a, (![0, 0] : Fin 2 → Nat) a + S1x2.size a ≤ S1x2.size a
  h_S1x2 : 0 < S1x2.numel
  broadcasts_S512x1_S512x2 : S512x1.Broadcasts S512x2
  broadcasts_S1x2_S512x2 : S1x2.Broadcasts S512x2
  shapeCasts_S1x2_S1x2 : S1x2.ShapeCasts S1x2
  inb_S512x2_S512x2_0_0 : ∀ a, (![0, 0] : Fin 2 → Nat) a + S512x2.size a ≤ S512x2.size a
  h_S512x2 : 0 < S512x2.numel
  dot_S1024x512_S512x1_S1024x1_1_0_0_1_n_n_wf : DotDims.WF S1024x512 S512x1 S1024x1 [1] [0] [0] [1] [] []
  dot_S512x8192_S8192x1_S512x1_1_0_0_1_n_n_wf : DotDims.WF S512x8192 S8192x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S512x1.size a
  hwx0_1 : ∀ i : grid0.Coords, EltTy.bits .f32 = 32 ∨ (Rect.block (s := S512x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S8192x8192.size a
  hwx1_0 : ∀ i : grid1.Coords, EltTy.bits .f32 = 32 ∨ (Rect.block (s := S8192x8192) S512x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S8192x1.size a
  hwx1_1 : ∀ i : grid1.Coords, EltTy.bits .f32 = 32 ∨ (Rect.block (s := S8192x1) S8192x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S8192x1.size a
  hwx1_3 : ∀ i : grid1.Coords, EltTy.bits .f32 = 32 ∨ (Rect.block (s := S8192x1) S512x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x8192.size a ≤ S8192x8192.size a
  hwx2_0 : ∀ i : grid2.Coords, EltTy.bits .f32 = 32 ∨ (Rect.block (s := S8192x8192) S512x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x1.size a ≤ S8192x1.size a
  hwx2_1 : ∀ i : grid2.Coords, EltTy.bits .f32 = 32 ∨ (Rect.block (s := S8192x1) S8192x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x2.size a ≤ S8192x2.size a
  hwx2_4 : ∀ i : grid2.Coords, EltTy.bits .f32 = 32 ∨ (Rect.block (s := S8192x2) S512x2.size (cc2_transform_4 i) (hinb2_4 i)).WholeWords (EltTy.packing .f32)

variable [Facts₀]

def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf
def dot_S512x8192_S8192x1_S512x1_1_0_0_1_n_n : DotDims S512x8192 S8192x1 S512x1 where
  lhsContracting := [1]
  rhsContracting := [0]
  lhsNonContracting := [0]
  rhsNonContracting := [1]
  lhsBatch := []
  rhsBatch := []
  wf := dot_S512x8192_S8192x1_S512x1_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S8192x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v2) S512x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S512x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v2) S8192x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v3) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v0) S512x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x1 : Shape := ⟨2, ![512, 1]⟩
abbrev S1 : Shape := ⟨1, ![1]⟩
abbrev S1x2 : Shape := ⟨2, ![1, 2]⟩
abbrev S2 : Shape := ⟨1, ![2]⟩
abbrev S8192x1 : Shape := ⟨2, ![8192, 1]⟩
abbrev S1x1 : Shape := ⟨2, ![1, 1]⟩
abbrev S_ : Shape := ⟨0, ![]⟩
abbrev S8192x2 : Shape := ⟨2, ![8192, 2]⟩

abbrev nBuf : Space → Nat
  | .hbm => 22
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x1, .f32⟩
  | .hbm, ⟨3, _⟩ => ⟨S1, .f32⟩
  | .hbm, ⟨4, _⟩ => ⟨S1x2, .f32⟩
  | .hbm, ⟨5, _⟩ => ⟨S2, .f32⟩
  | .hbm, ⟨6, _⟩ => ⟨S8192x1, .f32⟩
  | .hbm, ⟨7, _⟩ => ⟨S8192x1, .f32⟩
  | .hbm, ⟨8, _⟩ => ⟨S1x1, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x2, .f32⟩
  | .hbm, ⟨15, _⟩ => ⟨S8192x2, .f32⟩
  | .hbm, ⟨16, _⟩ => ⟨S1x2, .f32⟩
  | .hbm, ⟨17, _⟩ => ⟨S8192x2, .f32⟩
  | .hbm, ⟨18, _⟩ => ⟨S8192x2, .f32⟩
  | .hbm, ⟨19, _⟩ => ⟨S_, .f32⟩
  | .hbm, ⟨20, _⟩ => ⟨S8192x2, .f32⟩
  | .hbm, ⟨21, _⟩ => ⟨S8192x2, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  bcast_S_S8192x2 : S_.BroadcastsInDim S8192x2 (![] : Fin 0 → Fin S8192x2.rank)
  dot_S8192x512_S512x1_S8192x1_1_0_0_1_n_n_wf : DotDims.WF S8192x512 S512x1 S8192x1 [1] [0] [0] [1] [] []
  dot_S8192x8192_S8192x1_S8192x1_1_0_0_1_n_n_wf : DotDims.WF S8192x8192 S8192x1 S8192x1 [1] [0] [0] [1] [] []
  dot_S8192x1_S1x2_S8192x2_1_0_0_1_n_n_wf : DotDims.WF S8192x1 S1x2 S8192x2 [1] [0] [0] [1] [] []
  dot_S8192x8192_S8192x2_S8192x2_1_0_0_1_n_n_wf : DotDims.WF S8192x8192 S8192x2 S8192x2 [1] [0] [0] [1] [] []

variable [Facts₀]

def dot_S8192x512_S512x1_S8192x1_1_0_0_1_n_n : DotDims S8192x512 S512x1 S8192x1 where
  lhsContracting := [1]
  rhsContracting := [0]
  lhsNonContracting := [0]
  rhsNonContracting := [1]
  lhsBatch := []
  rhsBatch := []
  wf := dot_S8192x512_S512x1_S8192x1_1_0_0_1_n_n_wf
def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf
def dot_S8192x1_S1x2_S8192x2_1_0_0_1_n_n : DotDims S8192x1 S1x2 S8192x2 where
  lhsContracting := [1]
  rhsContracting := [0]
  lhsNonContracting := [0]
  rhsNonContracting := [1]
  lhsBatch := []
  rhsBatch := []
  wf := dot_S8192x1_S1x2_S8192x2_1_0_0_1_n_n_wf
def dot_S8192x8192_S8192x2_S8192x2_1_0_0_1_n_n : DotDims S8192x8192 S8192x2 S8192x2 where
  lhsContracting := [1]
  rhsContracting := [0]
  lhsNonContracting := [0]
  rhsNonContracting := [1]
  lhsBatch := []
  rhsBatch := []
  wf := dot_S8192x8192_S8192x2_S8192x2_1_0_0_1_n_n_wf

class Facts : Prop extends Facts₀ where

variable [Facts]
-- ==== Proof.Gcn.lean ====
/-
  Two graph-convolution layers on a dense adjacency matrix, entry by entry on the extended reals.

    u   = x · W1                      (8192×512 by 512×1)
    h   = max(a · u + b1, 0)          (8192×8192 by 8192×1, one bias)
    out = max(a · (h · W2) + b2, 0)   (the nested form: h · W2 is 8192×2, then a second product against a)
    out = max((a · h) · W2 + b2, 0)   (the factored form: h has ONE column, so h · W2 is rank one and the
                                       row of W2 comes out of the sum over the 8192 neighbours)

  The two forms of the last layer differ by moving the factor W2[0,c] across a sum of 8192 terms:
  Σₖ a[r,k]·(h[k]·w) = (Σₖ a[r,k]·h[k])·w. On the extended reals multiplication does not distribute over
  addition at infinities of both signs, so the law is proved for REAL entries (through ℝ, where it is
  Finset.sum_mul), and the entries of h are real when x, a, W1 and b1 are: sums, products and maxima of
  reals are real. Nothing here mentions a program.
-/
import Idealize.ShloMosaic.PureOps.Ideal.Laws
import Idealize.ShloMosaic.Lib.ValueIdx

noncomputable section

namespace Cert.Gcn

open Idealize.ShloMosaic Idealize.ShloMosaic.ValueIdx

/-! ## Real entries -/

/-- An extended real that is a real number (neither infinity). -/
def IsReal (z : EReal) : Prop := ∃ r : ℝ, z = (r : EReal)

theorem IsReal.zero : IsReal 0 := ⟨0, EReal.coe_zero.symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.max {a b : EReal} (ha : IsReal a) (hb : IsReal b) : IsReal (max a b) := by
  rcases max_choice a b with h | h
  · rw [h]; exact ha
  · rw [h]; exact hb

/-- A finite sum of reals is real. -/
theorem IsReal.sum {ι : Type} (s : Finset ι) (f : ι → EReal) (h : ∀ k, IsReal (f k)) : IsReal (∑ k ∈ s, f k) := by
  classical
  refine Finset.induction_on s ?_ ?_
  · rw [Finset.sum_empty]; exact IsReal.zero
  · intro a s ha ih
    rw [Finset.sum_insert ha]
    exact (h a).add ih

/-- The inclusion of ℝ commutes with finite sums. -/
theorem coe_sum {ι : Type} (s : Finset ι) (f : ι → ℝ) : ((∑ k ∈ s, f k : ℝ) : EReal) = ∑ k ∈ s, (f k : EReal) := by
  classical
  refine Finset.induction_on s ?_ ?_
  · rw [Finset.sum_empty, Finset.sum_empty]; exact EReal.coe_zero
  · intro a s ha ih
    rw [Finset.sum_insert ha, Finset.sum_insert ha, EReal.coe_add, ih]

/-- A real factor comes out of a finite sum of reals: (Σₖ pₖ)·w = Σₖ pₖ·w. -/
theorem sum_mul_real {n : Nat} (p : Fin n → EReal) (w : EReal) (hp : ∀ k, IsReal (p k)) (hw : IsReal w) :
    (∑ k, p k) * w = ∑ k, p k * w := by
  obtain ⟨w', rfl⟩ := hw
  choose p' hp' using hp
  obtain rfl : p = fun k => ((p' k : ℝ) : EReal) := funext hp'
  calc (∑ k, ((p' k : ℝ) : EReal)) * (w' : EReal)
      = ((∑ k, p' k : ℝ) : EReal) * (w' : EReal) := by rw [coe_sum]
    _ = (((∑ k, p' k) * w' : ℝ) : EReal) := (EReal.coe_mul _ _).symm
    _ = ((∑ k, p' k * w' : ℝ) : EReal) := by rw [Finset.sum_mul]
    _ = ∑ k, ((p' k * w' : ℝ) : EReal) := coe_sum _ _
    _ = ∑ k, ((p' k : ℝ) : EReal) * (w' : EReal) := Finset.sum_congr rfl fun k _ => EReal.coe_mul _ _

/-! ## The layers, at an entry (r, c) -/

/-- u = x · W1 at (r, c). -/
def featAt (x : (⟨2, ![8192, 512]⟩ : Shape).Idx → EReal) (w : (⟨2, ![512, 1]⟩ : Shape).Idx → EReal)
    (r : Fin 8192) (c : Fin 1) : EReal :=
  ∑ k : Fin 512, x (ix2 r k) * w (ix2 k c)

/-- h = max(a · u + b, 0) at (r, c). -/
def hiddenAt (a : (⟨2, ![8192, 8192]⟩ : Shape).Idx → EReal) (u : (⟨2, ![8192, 1]⟩ : Shape).Idx → EReal) (b : EReal)
    (r : Fin 8192) (c : Fin 1) : EReal :=
  max ((∑ k : Fin 8192, a (ix2 r k) * u (ix2 k c)) + b) 0

/-- The last layer with the row of W2 outside the sum over neighbours: max((a · h)[r] · W2[0,c] + b2[c], 0). -/
def outFactoredAt (a : (⟨2, ![8192, 8192]⟩ : Shape).Idx → EReal) (h : (⟨2, ![8192, 1]⟩ : Shape).Idx → EReal)
    (w2 : (⟨2, ![1, 2]⟩ : Shape).Idx → EReal) (b2 : (⟨1, ![2]⟩ : Shape).Idx → EReal) (r : Fin 8192) (c : Fin 2) : EReal :=
  max ((∑ k : Fin 8192, a (ix2 r k) * h (ix2 k (0 : Fin 1))) * w2 (ix2 (0 : Fin 1) c) + b2 (ix1 c)) 0

/-- The last layer as two matrix products: max((a · (h · W2))[r,c] + b2[c], 0). -/
def outNestedAt (a : (⟨2, ![8192, 8192]⟩ : Shape).Idx → EReal) (h : (⟨2, ![8192, 1]⟩ : Shape).Idx → EReal)
    (w2 : (⟨2, ![1, 2]⟩ : Shape).Idx → EReal) (b2 : (⟨1, ![2]⟩ : Shape).Idx → EReal) (r : Fin 8192) (c : Fin 2) : EReal :=
  max ((∑ k : Fin 8192, a (ix2 r k) * (∑ j : Fin 1, h (ix2 k j) * w2 (ix2 j c))) + b2 (ix1 c)) 0

/-! ## The layers, as whole arrays -/

def feat (x : (⟨2, ![8192, 512]⟩ : Shape).Idx → EReal) (w : (⟨2, ![512, 1]⟩ : Shape).Idx → EReal) :
    (⟨2, ![8192, 1]⟩ : Shape).Idx → EReal := fun i => featAt x w (i 0) (i 1)

def hidden (a : (⟨2, ![8192, 8192]⟩ : Shape).Idx → EReal) (u : (⟨2, ![8192, 1]⟩ : Shape).Idx → EReal) (b : EReal) :
    (⟨2, ![8192, 1]⟩ : Shape).Idx → EReal := fun i => hiddenAt a u b (i 0) (i 1)

def outFactored (a : (⟨2, ![8192, 8192]⟩ : Shape).Idx → EReal) (h : (⟨2, ![8192, 1]⟩ : Shape).Idx → EReal)
    (w2 : (⟨2, ![1, 2]⟩ : Shape).Idx → EReal) (b2 : (⟨1, ![2]⟩ : Shape).Idx → EReal) :
    (⟨2, ![8192, 2]⟩ : Shape).Idx → EReal := fun i => outFactoredAt a h w2 b2 (i 0) (i 1)

def outNested (a : (⟨2, ![8192, 8192]⟩ : Shape).Idx → EReal) (h : (⟨2, ![8192, 1]⟩ : Shape).Idx → EReal)
    (w2 : (⟨2, ![1, 2]⟩ : Shape).Idx → EReal) (b2 : (⟨1, ![2]⟩ : Shape).Idx → EReal) :
    (⟨2, ![8192, 2]⟩ : Shape).Idx → EReal := fun i => outNestedAt a h w2 b2 (i 0) (i 1)

/-! ## Real inputs give a real hidden layer -/

theorem feat_real {x : (⟨2, ![8192, 512]⟩ : Shape).Idx → EReal} {w : (⟨2, ![512, 1]⟩ : Shape).Idx → EReal}
    (hx : ∀ i, IsReal (x i)) (hw : ∀ i, IsReal (w i)) (i : (⟨2, ![8192, 1]⟩ : Shape).Idx) : IsReal (feat x w i) := by
  unfold feat featAt
  exact IsReal.sum _ _ fun _ => (hx _).mul (hw _)

theorem hidden_real {a : (⟨2, ![8192, 8192]⟩ : Shape).Idx → EReal} {u : (⟨2, ![8192, 1]⟩ : Shape).Idx → EReal} {b : EReal}
    (ha : ∀ i, IsReal (a i)) (hu : ∀ i, IsReal (u i)) (hb : IsReal b) (i : (⟨2, ![8192, 1]⟩ : Shape).Idx) :
    IsReal (hidden a u b i) := by
  unfold hidden hiddenAt
  exact ((IsReal.sum _ _ fun _ => (ha _).mul (hu _)).add hb).max IsReal.zero

/-! ## The two forms of the last layer agree on real entries -/

/-- With a, h and W2 real the nested and the factored last layer are the same array: h has one column, so
    (h · W2)[k,c] = h[k]·W2[0,c], the product is associative, and the real factor W2[0,c] comes out of the sum. -/
theorem outNested_eq_outFactored {a : (⟨2, ![8192, 8192]⟩ : Shape).Idx → EReal} {h : (⟨2, ![8192, 1]⟩ : Shape).Idx → EReal}
    {w2 : (⟨2, ![1, 2]⟩ : Shape).Idx → EReal} (b2 : (⟨1, ![2]⟩ : Shape).Idx → EReal)
    (ha : ∀ i, IsReal (a i)) (hh : ∀ i, IsReal (h i)) (hw : ∀ i, IsReal (w2 i)) :
    outNested a h w2 b2 = outFactored a h w2 b2 := by
  funext i
  obtain ⟨r, c, rfl⟩ : ∃ (r : Fin 8192) (c : Fin 2), i = ix2 r c := ⟨i 0, i 1, eq_ix2 i⟩
  show max ((∑ k : Fin 8192, a (ix2 r k) * (∑ j : Fin 1, h (ix2 k j) * w2 (ix2 j c))) + b2 (ix1 c)) 0
      = max ((∑ k : Fin 8192, a (ix2 r k) * h (ix2 k (0 : Fin 1))) * w2 (ix2 (0 : Fin 1) c) + b2 (ix1 c)) 0
  rw [sum_mul_real (fun k : Fin 8192 => a (ix2 r k) * h (ix2 k (0 : Fin 1))) _ (fun k => (ha _).mul (hh _)) (hw _)]
  refine congrArg (fun z => max (z + b2 (ix1 c)) 0) (Finset.sum_congr rfl fun k _ => ?_)
  rw [Fin.sum_univ_one, mul_assoc]

end Cert.Gcn

end
-- ==== Proof.KernelRun.lean ====
/-
  The idealized kernel's run, with its result named.

  The program is three calls with two one-operation host stretches between them. The contents of every buffer
  at each of the six boundaries are a fold from the launch memory (`W0` … `W5`); the run ends with every
  unscoped buffer at the last boundary's contents `W5`. Read at the six argument buffers this gives the
  arguments unchanged; read ALSO at the result buffer it gives the result as `W5` there, which the layer
  lemmas then evaluate. The run is the library's several-regions launch theorem over the program's segments,
  its final-state predicate "every unscoped buffer holds `W5`" read at seven buffers instead of six.
-/
import proofs.«175287_g75419625718022_cont_9to1c4b_526_2_alg».proof.Proof.Gen.KernelIdeal.Frame

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result buffer holding the last
    boundary's contents and the six argument arrays what they held at launch. -/
theorem run_named : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Layers

end
-- ==== Proof.LibRowOps.lean ====
/-
  Rows of a matrix at the ideal values: a matrix product into a zero accumulator read at an entry as the sum over the
  contracted axis (also against a transposed right factor), a row's maximum and a row's sum spread back over the row's
  columns (the keepdims column [m] → [m,1] → [m,n]), each read at an entry (r, c) with the coordinates written out.
  Nothing here mentions a program: the shapes are literal ranks with symbolic extents.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

/-- In a plain M×K by K×N product the left operand's row coordinate is the output's row. -/
theorem plain_lhs_row {M K N : Nat} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- … and the right operand's column coordinate is the output's column. -/
theorem plain_rhs_col {M K N : Nat} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The product of an M×K and a K×N matrix into the zero matrix, at entry (r, c): the sum over k of (r, k) times (k, c). -/
theorem plain_matmul_apply {M K N : Nat} {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact plain_rhs_col _ _)
  rw [el, er]

/-- The same against a right factor given as an N×K matrix transposed: the sum over k of (r, k) times (c, k). -/
theorem plain_matmul_transposed_apply {M K N : Nat} {φ₁ φ₂ : FTy} (prec : Option ContractPrecision)
    (lhs : FVec Ideal ⟨2, ![M, K]⟩ φ₁) (b : FVec Ideal ⟨2, ![N, K]⟩ φ₂)
    (h : (⟨2, ![N, K]⟩ : Shape).Transposes [1, 0] ⟨2, ![K, N]⟩) (r : Fin M) (c : Fin N) :
    matmul (DotDims.plain M K N) prec lhs (transpose ⟨2, ![K, N]⟩ [1, 0] b h) (constant (F := Ideal) ⟨2, ![M, N]⟩ .f32 0x00000000#32) (ix2 r c)
      = ∑ k : Fin K, lhs (ix2 r k) * b (ix2 c k) := by
  refine (plain_matmul_apply prec lhs _ r c).trans (Finset.sum_congr rfl fun k _ => ?_)
  exact congrArg (lhs (ix2 r k) * ·) (transpose_ix2_apply b h k c)

/-- A column of row values [m] viewed [m,1] and spread over n columns reads, at (r, c), the row's value. -/
theorem column_spread_apply {α : Type} {M N : Nat} (v : (⟨1, ![M]⟩ : Shape).Idx → α)
    (h1 : (⟨1, ![M]⟩ : Shape).ShapeCasts ⟨2, ![M, 1]⟩) (h2 : (⟨2, ![M, 1]⟩ : Shape).Broadcasts ⟨2, ![M, N]⟩)
    (r : Fin M) (c : Fin N) :
    broadcastTo ⟨2, ![M, N]⟩ (shapeCast ⟨2, ![M, 1]⟩ v h1) h2 (ix2 r c) = v (ix1 r) := by
  refine (broadcastTo_apply _ h2 (ix2 r c) (ix2 r (0 : Fin 1)) fun a => ?_).trans ?_
  · match a with
    | ⟨0, _⟩ =>
      show r.val = if M = 1 then 0 else r.val
      split
      · have := r.isLt; omega
      · rfl
    | ⟨1, _⟩ => show 0 = if (1 : Nat) = 1 then 0 else c.val; rw [if_pos rfl]
  · refine shapeCast_apply v h1 _ _ ?_
    rw [Shape.rowMajor_val_one, Shape.rowMajor_val_two]
    show r.val = r.val * 1 + 0
    omega

/-- A row's maximum from the accumulator's value, joined once more with a second bound `lo`, spread back over the row. -/
theorem row_max_spread_apply {M N : Nat} (src : FVec Ideal ⟨2, ![M, N]⟩ .f32) (lo acc : BitVec (FTy.bits .f32))
    (h : (⟨2, ![M, N]⟩ : Shape).Reduces [1] ⟨1, ![M]⟩) (hφ : FKind.Formats .f32) (hacc : acc = FKind.maximumf.neutral .f32 hφ)
    (h1 : (⟨1, ![M]⟩ : Shape).ShapeCasts ⟨2, ![M, 1]⟩) (h2 : (⟨2, ![M, 1]⟩ : Shape).Broadcasts ⟨2, ![M, N]⟩)
    (r : Fin M) (c : Fin N) :
    broadcastTo ⟨2, ![M, N]⟩ (shapeCast ⟨2, ![M, 1]⟩
        (maximumf (broadcast ⟨1, ![M]⟩ (Scalar.ofBits (F := Ideal) .f32 lo)) (multiReduction .maximumf [1] ⟨1, ![M]⟩ src acc h hφ hacc)) h1) h2 (ix2 r c)
      = max (Ideal.ofBits .f32 lo) ((Finset.univ : Finset (Fin N)).fold max (Ideal.ofBits .f32 acc) fun q => src (ix2 r q)) := by
  refine (column_spread_apply _ h1 h2 r c).trans ?_
  show max (Ideal.ofBits .f32 lo) (multiReduction .maximumf [1] ⟨1, ![M]⟩ src acc h hφ hacc (ix1 r)) = _
  refine congrArg (max (Ideal.ofBits .f32 lo)) ?_
  refine (Ideal.multiReduction_maximumf_single src acc h hφ hacc (ix1 r)).trans ?_
  refine congrArg (Finset.fold max _ · _) (funext fun q => congrArg src (funext fun a => Fin.ext ?_))
  match a with
  | ⟨0, _⟩ => rfl
  | ⟨1, _⟩ => rfl

/-- A row's sum spread back over the row. -/
theorem row_sum_spread_apply {M N : Nat} (src : FVec Ideal ⟨2, ![M, N]⟩ .f32) (acc : BitVec (FTy.bits .f32))
    (h : (⟨2, ![M, N]⟩ : Shape).Reduces [1] ⟨1, ![M]⟩) (hφ : FKind.Formats .f32) (hacc : acc = FKind.add.neutral .f32 hφ)
    (h1 : (⟨1, ![M]⟩ : Shape).ShapeCasts ⟨2, ![M, 1]⟩) (h2 : (⟨2, ![M, 1]⟩ : Shape).Broadcasts ⟨2, ![M, N]⟩)
    (r : Fin M) (c : Fin N) :
    broadcastTo ⟨2, ![M, N]⟩ (shapeCast ⟨2, ![M, 1]⟩ (multiReduction .add [1] ⟨1, ![M]⟩ src acc h hφ hacc) h1) h2 (ix2 r c)
      = ∑ q : Fin N, src (ix2 r q) := by
  refine (column_spread_apply _ h1 h2 r c).trans ?_
  refine (Ideal.multiReduction_add_single src acc h hφ hacc (ix1 r)).trans ?_
  refine Finset.sum_congr rfl fun q _ => congrArg src (funext fun a => Fin.ext ?_)
  match a with
  | ⟨0, _⟩ => rfl
  | ⟨1, _⟩ => rfl

/-- On the host: the maximum over the last axis of a rank-3 array from an initial value, at (b, c), is the fold of `max` from
    that value over the last coordinate. -/
theorem host_row_max_apply {B M N : Nat} (x : (⟨3, ![B, M, N]⟩ : Shape).Idx → EReal) (init : (⟨0, ![]⟩ : Shape).Idx → EReal)
    (h' : (⟨3, ![B, M, N]⟩ : Shape).ReducesTo [2] ⟨2, ![B, M]⟩) (h : (⟨3, ![B, M, N]⟩ : Shape).Reduces [2] ⟨2, ![B, M]⟩)
    (hu : 0 < (⟨0, ![]⟩ : Shape).numel) (b : Fin B) (c : Fin M) :
    Host.reduce (FloatOps.maximumf (F := Ideal) (φ := .f32)) x init h' hu (ix2 b c)
      = (Finset.univ : Finset (Fin N)).fold max (init (Shape.Idx.first hu)) fun q => x (ix3 b c q) := by
  refine (Host.reduce_eq_fold_single (FloatOps.maximumf (F := Ideal) (φ := .f32)) x init h' h hu (ix2 b c)).trans ?_
  refine congrArg (Finset.fold max _ · _) (funext fun q => congrArg x (funext fun a => Fin.ext ?_))
  match a with
  | ⟨0, _⟩ => rfl
  | ⟨1, _⟩ => rfl
  | ⟨2, _⟩ => rfl

end Cert.RowOps

end
-- ==== Proof.FeatBlocks.lean ====
/-
  The first call: u = x · W1, computed 1024 rows at a time.

  Grid point t stages rows 1024·t … 1024·t+1023 of x (all 512 columns), the whole of W1, and writes rows
  1024·t … 1024·t+1023 of the one-column result. The body is one matrix product into a zero accumulator, so
  entry (p, 0) of the block written at t is Σₖ x[1024·t+p, k]·W1[k, 0]: the block is the restriction of the
  whole-array function `Gcn.feat x W1` to the block's rows. The eight blocks tile the 8192 rows, so after the
  call the result array IS `Gcn.feat` of the two arrays as the call found them. Stated for any contents `V`
  of the buffers at the call's entry.
-/
import proofs.«175287_g75419625718022_cont_9to1c4b_526_2_alg».proof.Proof.Gen.KernelIdeal.Frame
import proofs.«175287_g75419625718022_cont_9to1c4b_526_2_alg».proof.Proof.Gcn
import proofs.«175287_g75419625718022_cont_9to1c4b_526_2_alg».proof.Proof.LibRowOps
import Idealize.ShloMosaic.Lib.Pipeline.Value

set_option maxRecDepth 16384

noncomputable section

namespace Cert.KernelIdeal.Layers

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin2 : (![0, 0] : Fin 2 → Nat) = fun _ => 0 := funext fun a => by fin_cases a <;> rfl

/-- The body's stored value at (p, q): the product's entry as a sum over the 512 contracted columns. -/
theorem featPay_apply (x0 : FVec Ideal S1024x512 .f32) (x1 : FVec Ideal S512x1 .f32) (p : Fin 1024) (q : Fin 1) :
    k0_pay1 (F := Ideal) x0 x1 (ix2 p q) = ∑ k : Fin 512, x0 (ix2 p k) * x1 (ix2 k q) :=
  Cert.RowOps.plain_matmul_apply none x0 x1 p q

/-- Where the blocks sit: x's and the result's row block is the grid coordinate, every other block index is 0. -/
theorem featIdx : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every one of the 8 row blocks is some grid point's. -/
theorem featOnto : ∀ q0 : Fin 8, ∃ t : Fin cfg0.N, win0_2.index t = ![q0.val, 0] :=
  (by decide +kernel : ∀ q0 : Fin 8, ∃ t : Fin grid0.N, win0_2.index t = ![q0.val, 0])

/-- What grid point t writes back is block t of `Gcn.feat` of x and W1 as the call finds them. -/
theorem featFlushed (c : Dev nD) (t : Fin cfg0.N) :
    (dat0 V c).flushed 2 t
      = ((cfg0.win 2).blk t).view.read (Elt Ideal) (Cert.Gcn.feat (V c main_arg0) (V c main_arg2)) := by
  show (cfg0.win 2).cut (grid0.coords t) ((dat0 V c).after 2 t) = _
  rw [after0_2]
  unfold out0_2
  rw [View.canon_unit_zero origin2]
  simp only [View.ld_unit_zero (S := S1024x512) origin2, View.ld_unit_zero (S := S512x1) origin2]
  obtain ⟨e0, e1, e2, e3, e4⟩ := featIdx t
  funext j
  obtain ⟨p, q, rfl⟩ : ∃ (p : Fin 1024) (q : Fin 1), j = ix2 p q := ⟨j 0, j 1, eq_ix2 j⟩
  show k0_pay1 (iblk0 V c 0 t) (iblk0 V c 1 t) (ix2 p q)
      = Cert.Gcn.feat (V c main_arg0) (V c main_arg2) (((cfg0.win 2).blk t).view.emb (ix2 p q))
  refine (featPay_apply (iblk0 V c 0 t) (iblk0 V c 1 t) p q).trans ?_
  unfold Cert.Gcn.feat Cert.Gcn.featAt
  refine Finset.sum_congr rfl fun k _ => ?_
  have h0 : iblk0 V c 0 t (ix2 p k) = V c main_arg0 (ix2 (((cfg0.win 2).blk t).view.emb (ix2 p q) 0) k) := by
    show V c main_arg0 (((cfg0.win 0).blk t).view.emb (ix2 p k)) = _
    refine congrArg (V c main_arg0) (funext fun a => Fin.ext ?_)
    match a with
    | ⟨0, _⟩ =>
      show win0_0.index t (0 : Fin 2) * 1024 + 1 * p.val = win0_2.index t (0 : Fin 2) * 1024 + 1 * p.val
      omega
    | ⟨1, _⟩ =>
      show win0_0.index t (1 : Fin 2) * 512 + 1 * k.val = k.val
      omega
  have h1 : iblk0 V c 1 t (ix2 k q) = V c main_arg2 (ix2 k (((cfg0.win 2).blk t).view.emb (ix2 p q) 1)) := by
    show V c main_arg2 (((cfg0.win 1).blk t).view.emb (ix2 k q)) = _
    refine congrArg (V c main_arg2) (funext fun a => Fin.ext ?_)
    match a with
    | ⟨0, _⟩ =>
      show win0_1.index t (0 : Fin 2) * 512 + 1 * k.val = k.val
      omega
    | ⟨1, _⟩ =>
      show win0_1.index t (1 : Fin 2) * 1 + 1 * q.val = win0_2.index t (1 : Fin 2) * 1 + 1 * q.val
      omega
  rw [h0, h1]

/-- A row index of the result is in grid point t's block iff it is among the block's 1024 rows. -/
theorem featMem (t : Fin cfg0.N) (i : S8192x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_call0_v0).slice (win0_2.rect t)).set ↔ _
  rw [View.set_slice_whole, Rect.mem_set_unit]
  exact Iff.rfl

/-- Row r lies in block r / 1024: the eight blocks cover the array. -/
theorem featCover (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  obtain ⟨t, ht⟩ := featOnto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [featMem]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1 ≤ (i 1).val ∧ (i 1).val < win0_2.index t (1 : Fin 2) * 1 + 1
    omega

/-- After the first call its result array is u = x · W1 of the arrays as the call found them. -/
theorem featArray (c : Dev nD) :
    (dat0 V c).arrAt 2 cfg0.N = Cert.Gcn.feat (V c main_arg0) (V c main_arg2) :=
  (dat0 V c).arrAt_eq_of_cover 2 _ (fun t _ => featFlushed V c t) featCover

end Cert.KernelIdeal.Layers

end
-- ==== Proof.HiddenBlocks.lean ====
/-
  The second call: h = max(a · u + b1, 0), computed 512 rows at a time.

  Grid point t stages rows 512·t … 512·t+511 of a (all 8192 columns), the whole column u, the 1×1 bias, and
  writes rows 512·t … 512·t+511 of the one-column result. The body is a matrix product into a zero
  accumulator, the bias added to every row, and the maximum with zero, so entry (p, 0) of the block written
  at t is max(Σₖ a[512·t+p, k]·u[k, 0] + b1, 0): the restriction of `Gcn.hidden a u b1` to the block's rows.
  The sixteen blocks tile the 8192 rows. Stated for any contents `V` of the buffers at the call's entry.
-/
import proofs.«175287_g75419625718022_cont_9to1c4b_526_2_alg».proof.Proof.Gen.KernelIdeal.Frame
import proofs.«175287_g75419625718022_cont_9to1c4b_526_2_alg».proof.Proof.Gcn
import proofs.«175287_g75419625718022_cont_9to1c4b_526_2_alg».proof.Proof.LibRowOps
import proofs.«175287_g75419625718022_cont_9to1c4b_526_2_alg».proof.Proof.FeatBlocks
import Idealize.ShloMosaic.Lib.Pipeline.Value

set_option maxRecDepth 16384

noncomputable section

namespace Cert.KernelIdeal.Layers

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The body's stored value at (p, q): the product's entry plus the bias, cut off below at zero. -/
theorem hiddenPay_apply (x0 : FVec Ideal S512x8192 .f32) (x1 : FVec Ideal S8192x1 .f32) (x2 : FVec Ideal S1x1 .f32)
    (p : Fin 512) (q : Fin 1) :
    k1_pay1 (F := Ideal) x0 x1 x2 (ix2 p q)
      = max ((∑ k : Fin 8192, x0 (ix2 p k) * x1 (ix2 k q)) + x2 (ix2 (0 : Fin 1) (0 : Fin 1))) 0 := by
  show max (matmul dot_S512x8192_S8192x1_S512x1_1_0_0_1_n_n none x0 (shapeCast S8192x1 x1 shapeCasts_S8192x1_S8192x1)
          (constant (F := Ideal) S512x1 .f32 0x00000000#32) (ix2 p q)
        + extractAt ![0, 0] x2 inpos_S1x1_p0_0)
      (Ideal.ofBits .f32 0x00000000#32) = _
  rw [shapeCast_self, Ideal.ofBits_zero_f32]
  refine congrArg (fun z => max z 0) (congrArg₂ (· + ·) (Cert.RowOps.plain_matmul_apply none x0 x1 p q) ?_)
  exact congrArg x2 (funext fun a => Fin.ext (by match a with | ⟨0, _⟩ => rfl | ⟨1, _⟩ => rfl))

/-- Where the blocks sit: a's and the result's row block is the grid coordinate, every other block index is 0. -/
theorem hiddenIdx : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 :=
  (by decide +kernel : ∀ t : Fin grid1.N, _)

/-- Every one of the 16 row blocks is some grid point's. -/
theorem hiddenOnto : ∀ q0 : Fin 16, ∃ t : Fin cfg1.N, win1_3.index t = ![q0.val, 0] :=
  (by decide +kernel : ∀ q0 : Fin 16, ∃ t : Fin grid1.N, win1_3.index t = ![q0.val, 0])

/-- What grid point t writes back is block t of `Gcn.hidden` of a, u and the bias as the call finds them. -/
theorem hiddenFlushed (c : Dev nD) (t : Fin cfg1.N) :
    (dat1 V c).flushed 3 t
      = ((cfg1.win 3).blk t).view.read (Elt Ideal)
          (Cert.Gcn.hidden (V c main_arg1) (V c main_call0_v0) (V c main_call0_v1 (ix2 (0 : Fin 1) (0 : Fin 1)))) := by
  show (cfg1.win 3).cut (grid1.coords t) ((dat1 V c).after 3 t) = _
  rw [after1_3]
  unfold out1_3
  rw [View.canon_unit_zero origin2]
  simp only [View.ld_unit_zero (S := S512x8192) origin2, View.ld_unit_zero (S := S8192x1) origin2,
    View.ld_unit_zero (S := S1x1) origin2]
  obtain ⟨e0, e1, e2, e3, e4, e5, e6⟩ := hiddenIdx t
  funext j
  obtain ⟨p, q, rfl⟩ : ∃ (p : Fin 512) (q : Fin 1), j = ix2 p q := ⟨j 0, j 1, eq_ix2 j⟩
  show k1_pay1 (iblk1 V c 0 t) (iblk1 V c 1 t) (iblk1 V c 2 t) (ix2 p q)
      = Cert.Gcn.hidden (V c main_arg1) (V c main_call0_v0) (V c main_call0_v1 (ix2 (0 : Fin 1) (0 : Fin 1)))
          (((cfg1.win 3).blk t).view.emb (ix2 p q))
  refine (hiddenPay_apply (iblk1 V c 0 t) (iblk1 V c 1 t) (iblk1 V c 2 t) p q).trans ?_
  unfold Cert.Gcn.hidden Cert.Gcn.hiddenAt
  have hb : iblk1 V c 2 t (ix2 (0 : Fin 1) (0 : Fin 1)) = V c main_call0_v1 (ix2 (0 : Fin 1) (0 : Fin 1)) := by
    show V c main_call0_v1 (((cfg1.win 2).blk t).view.emb (ix2 (0 : Fin 1) (0 : Fin 1))) = _
    refine congrArg (V c main_call0_v1) (funext fun a => Fin.ext ?_)
    match a with
    | ⟨0, _⟩ =>
      show win1_2.index t (0 : Fin 2) * 1 + 1 * 0 = 0
      omega
    | ⟨1, _⟩ =>
      show win1_2.index t (1 : Fin 2) * 1 + 1 * 0 = 0
      omega
  rw [hb]
  refine congrArg (fun z => max (z + V c main_call0_v1 (ix2 (0 : Fin 1) (0 : Fin 1))) 0)
    (Finset.sum_congr rfl fun k _ => ?_)
  have h0 : iblk1 V c 0 t (ix2 p k) = V c main_arg1 (ix2 (((cfg1.win 3).blk t).view.emb (ix2 p q) 0) k) := by
    show V c main_arg1 (((cfg1.win 0).blk t).view.emb (ix2 p k)) = _
    refine congrArg (V c main_arg1) (funext fun a => Fin.ext ?_)
    match a with
    | ⟨0, _⟩ =>
      show win1_0.index t (0 : Fin 2) * 512 + 1 * p.val = win1_3.index t (0 : Fin 2) * 512 + 1 * p.val
      omega
    | ⟨1, _⟩ =>
      show win1_0.index t (1 : Fin 2) * 8192 + 1 * k.val = k.val
      omega
  have h1 : iblk1 V c 1 t (ix2 k q) = V c main_call0_v0 (ix2 k (((cfg1.win 3).blk t).view.emb (ix2 p q) 1)) := by
    show V c main_call0_v0 (((cfg1.win 1).blk t).view.emb (ix2 k q)) = _
    refine congrArg (V c main_call0_v0) (funext fun a => Fin.ext ?_)
    match a with
    | ⟨0, _⟩ =>
      show win1_1.index t (0 : Fin 2) * 8192 + 1 * k.val = k.val
      omega
    | ⟨1, _⟩ =>
      show win1_1.index t (1 : Fin 2) * 1 + 1 * q.val = win1_3.index t (1 : Fin 2) * 1 + 1 * q.val
      omega
  rw [h0, h1]

/-- A row index of the result is in grid point t's block iff it is among the block's 512 rows. -/
theorem hiddenMem (t : Fin cfg1.N) (i : S8192x1.Idx) :
    i ∈ ((cfg1.win 3).blk t).view.set ↔ ∀ a : Fin 2, win1_3.index t a * S512x1.size a ≤ (i a).val
      ∧ (i a).val < win1_3.index t a * S512x1.size a + S512x1.size a := by
  show i ∈ ((View.whole main_call0_v2).slice (win1_3.rect t)).set ↔ _
  rw [View.set_slice_whole, Rect.mem_set_unit]
  exact Iff.rfl

/-- Row r lies in block r / 512: the sixteen blocks cover the array. -/
theorem hiddenCover (i : S8192x1.Idx) :
    ∃ t : Fin cfg1.N, (cfg1.win 3).flush t = true ∧ i ∈ ((cfg1.win 3).blk t).view.set := by
  have hi0 : (i 0).val < 8192 := (i 0).isLt
  have hi1 : (i 1).val < 1 := (i 1).isLt
  obtain ⟨t, ht⟩ := hiddenOnto ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [hiddenMem]
  intro a
  match a with
  | ⟨0, _⟩ =>
    show win1_3.index t (0 : Fin 2) * 512 ≤ (i 0).val ∧ (i 0).val < win1_3.index t (0 : Fin 2) * 512 + 512
    omega
  | ⟨1, _⟩ =>
    show win1_3.index t (1 : Fin 2) * 1 ≤ (i 1).val ∧ (i 1).val < win1_3.index t (1 : Fin 2) * 1 + 1
    omega

/-- After the second call its result array is h = max(a · u + b1, 0) of the arrays as the call found them. -/
theorem hiddenArray (c : Dev nD) :
    (dat1 V c).arrAt 3 cfg1.N
      = Cert.Gcn.hidden (V c main_arg1) (V c main_call0_v0) (V c main_call0_v1 (ix2 (0 : Fin 1) (0 : Fin 1))) :=
  (dat1 V c).arrAt_eq_of_cover 3 _ (fun t _ => hiddenFlushed V c t) hiddenCover

end Cert.KernelIdeal.Layers

end
-- ==== Proof.LibGridSum.lean ====
/-
  Sums over the entries of a matrix at the ideal values, taken in two stages, and sums over rows taken block by block.

  * A column [M,1] spread over N columns reads, at (a, k), the column's entry a.
  * The sum of ALL entries of an [M,N] matrix computed as the row sums [M], viewed as a column [M,1], summed down the
    column to [1] and viewed [1,1], is the double sum over a and k of the entries: the lane sum over one axis is a
    Fin-indexed sum, the sum into an all-unit shape is the total over the source's indices, and a rank-2 index set is
    the product of its coordinate ranges.
  * A sum over 8192 rows is the sum over 64 blocks of the sums over the 128 rows of each block (row 128·b + a), and the
    running sums block after block end at that total. Only commutativity and associativity of the addition are used,
    so the statements hold in any commutative monoid, the extended reals among them.
  Nothing here mentions a program: the shapes are literal ranks with symbolic extents.
-/
import Idealize.ShloMosaic.PureOps.Ideal.Laws
import Idealize.ShloMosaic.Lib.ValueIdx
import Idealize.ShloMosaic.Lib.ValueLayout
import Idealize.ShloMosaic.Lib.Pipeline.Value

noncomputable section

namespace Cert.GridSum

open Idealize.ShloMosaic Idealize.ShloMosaic.ValueIdx

/-- A column [M,1] spread over N columns reads, at (a, k), the column's entry a. -/
theorem column_spread_apply {α : Type} {M N : Nat} (v : (⟨2, ![M, 1]⟩ : Shape).Idx → α)
    (h : (⟨2, ![M, 1]⟩ : Shape).Broadcasts ⟨2, ![M, N]⟩) (a : Fin M) (k : Fin N) :
    broadcastTo ⟨2, ![M, N]⟩ v h (ix2 a k) = v (ix2 a (0 : Fin 1)) := by
  refine broadcastTo_apply v h (ix2 a k) (ix2 a (0 : Fin 1)) fun ax => ?_
  match ax with
  | ⟨0, _⟩ =>
    show a.val = if M = 1 then 0 else a.val
    split
    · have := a.isLt; omega
    · rfl
  | ⟨1, _⟩ => show 0 = if (1 : Nat) = 1 then 0 else k.val; rw [if_pos rfl]

/-- The row sums [M] of an [M,N] matrix viewed as a column [M,1] read, at (a, 0), the sum over k of the entries (a, k). -/
theorem row_sums_column_apply {M N : Nat} (src : FVec Ideal ⟨2, ![M, N]⟩ .f32) (acc : BitVec (FTy.bits .f32))
    (h : (⟨2, ![M, N]⟩ : Shape).Reduces [1] ⟨1, ![M]⟩) (hφ : FKind.Formats .f32) (hacc : acc = FKind.add.neutral .f32 hφ)
    (h1 : (⟨1, ![M]⟩ : Shape).ShapeCasts ⟨2, ![M, 1]⟩) (a : Fin M) (b : Fin 1) :
    shapeCast ⟨2, ![M, 1]⟩ (multiReduction .add [1] ⟨1, ![M]⟩ src acc h hφ hacc) h1 (ix2 a b)
      = ∑ k : Fin N, src (ix2 a k) := by
  refine (shapeCast_apply _ h1 (ix2 a b) (ix1 a) ?_).trans ?_
  · rw [Shape.rowMajor_val_one, Shape.rowMajor_val_two]
    show a.val = a.val * 1 + b.val
    have := b.isLt; omega
  · refine (Ideal.multiReduction_add_single src acc h hφ hacc (ix1 a)).trans ?_
    refine Finset.sum_congr rfl fun k _ => congrArg src (funext fun ax => Fin.ext ?_)
    match ax with
    | ⟨0, _⟩ => rfl
    | ⟨1, _⟩ => rfl

/-- The sum of all entries of an [M,N] matrix taken as row sums, then down the column of row sums, viewed [1,1]:
    the double sum of the entries. -/
theorem all_entries_sum_apply {M N : Nat} (src : FVec Ideal ⟨2, ![M, N]⟩ .f32) (acc acc' : BitVec (FTy.bits .f32))
    (h : (⟨2, ![M, N]⟩ : Shape).Reduces [1] ⟨1, ![M]⟩) (hφ : FKind.Formats .f32) (hacc : acc = FKind.add.neutral .f32 hφ)
    (h1 : (⟨1, ![M]⟩ : Shape).ShapeCasts ⟨2, ![M, 1]⟩)
    (h' : (⟨2, ![M, 1]⟩ : Shape).Reduces [0] ⟨1, ![1]⟩) (hφ' : FKind.Formats .f32) (hacc' : acc' = FKind.add.neutral .f32 hφ')
    (h2 : (⟨1, ![1]⟩ : Shape).ShapeCasts ⟨2, ![1, 1]⟩) (y : (⟨2, ![1, 1]⟩ : Shape).Idx) :
    shapeCast ⟨2, ![1, 1]⟩
        (multiReduction .add [0] ⟨1, ![1]⟩
          (shapeCast ⟨2, ![M, 1]⟩ (multiReduction .add [1] ⟨1, ![M]⟩ src acc h hφ hacc) h1) acc' h' hφ' hacc') h2 y
      = ∑ a : Fin M, ∑ k : Fin N, src (ix2 a k) := by
  refine (shapeCast_apply _ h2 y (ix1 (0 : Fin 1)) ?_).trans ?_
  · rw [Shape.rowMajor_val_one, Shape.rowMajor_val_two]
    have h0 : (y 0).val < 1 := (y 0).isLt
    have h1' : (y 1).val < 1 := (y 1).isLt
    show 0 = (y 0).val * 1 + (y 1).val
    omega
  · refine (Ideal.multiReduction_add_total _ acc' h' (fun b => by match b with | ⟨0, _⟩ => rfl) hφ' hacc' (ix1 (0 : Fin 1))).trans ?_
    rw [sum_idx2]
    refine Finset.sum_congr rfl fun a _ => ?_
    rw [Fin.sum_univ_one]
    exact row_sums_column_apply src acc h hφ hacc h1 a 0

/-- A vector [n] viewed as a column [n,1] reads, at (i, u), the vector's entry i. -/
theorem vector_as_column_apply {α : Type} {n : Nat} (v : (⟨1, ![n]⟩ : Shape).Idx → α)
    (h : (⟨1, ![n]⟩ : Shape).ShapeCasts ⟨2, ![n, 1]⟩) (i : Fin n) (u : Fin 1) :
    shapeCast ⟨2, ![n, 1]⟩ v h (ix2 i u) = v (ix1 i) :=
  shapeCast_apply v h _ _ (by
    rw [Shape.rowMajor_val_one, Shape.rowMajor_val_two]
    show i.val = i.val * 1 + u.val
    have := u.isLt; omega)

/-- A column [n,1] viewed as a vector [n] reads, at i, the column's entry (i, 0). -/
theorem column_as_vector_apply {α : Type} {n : Nat} (x : (⟨2, ![n, 1]⟩ : Shape).Idx → α)
    (h : (⟨2, ![n, 1]⟩ : Shape).ShapeCasts ⟨1, ![n]⟩) (i : Fin n) :
    shapeCast ⟨1, ![n]⟩ x h (ix1 i) = x (ix2 i (0 : Fin 1)) :=
  shapeCast_apply x h _ _ (by
    rw [Shape.rowMajor_val_two, Shape.rowMajor_val_one]
    show i.val * 1 + 0 = i.val
    omega)

/-! ## Rows in blocks -/

/-- Row a of block s, among 8192 rows in 64 blocks of 128. -/
def blockRow (s : ℕ) (hs : s < 64) (a : Fin 128) : Fin 8192 := ⟨128 * s + a.val, by have := a.isLt; omega⟩

theorem blockRow_val (s : ℕ) (hs : s < 64) (a : Fin 128) : (blockRow s hs a).val = 128 * s + a.val := rfl

/-- A sum over 8192 rows is the sum over 64 blocks of the sums over each block's 128 rows. -/
theorem sum_blocks {A : Type*} [AddCommMonoid A] (f : Fin 8192 → A) :
    ∑ i : Fin 8192, f i
      = ∑ b : Fin 64, ∑ a : Fin 128, f ⟨128 * b.val + a.val, by have := b.isLt; have := a.isLt; omega⟩ := by
  have e := Equiv.sum_comp (finProdFinEquiv (m := 64) (n := 128)) (fun i : Fin (64 * 128) => f i)
  refine e.symm.trans ?_
  rw [Fintype.sum_prod_type]
  refine Finset.sum_congr rfl fun b _ => Finset.sum_congr rfl fun a _ => congrArg f (Fin.ext ?_)
  show a.val + 128 * b.val = 128 * b.val + a.val
  omega

/-- Block s of a function of (row, column) pairs: the sum over the block's 128 rows and all 8192 columns
    (zero past the last block). -/
def blockSum {A : Type*} [AddCommMonoid A] (f : Fin 8192 → Fin 8192 → A) (s : ℕ) : A :=
  if hs : s < 64 then ∑ a : Fin 128, ∑ k : Fin 8192, f (blockRow s hs a) k else 0

/-- The sum over all ordered pairs. -/
def pairSum {A : Type*} [AddCommMonoid A] (f : Fin 8192 → Fin 8192 → A) : A := ∑ i : Fin 8192, ∑ k : Fin 8192, f i k

/-- The 64 block sums add up to the sum over all pairs. -/
theorem sum_blockSum {A : Type*} [AddCommMonoid A] (f : Fin 8192 → Fin 8192 → A) :
    ∑ s ∈ Finset.range 64, blockSum f s = pairSum f := by
  unfold pairSum
  rw [sum_blocks (fun i => ∑ k : Fin 8192, f i k), Finset.sum_range]
  refine Finset.sum_congr rfl fun b _ => ?_
  unfold blockSum
  rw [dif_pos b.isLt]
  rfl

end Cert.GridSum

end
-- ==== Proof.OutBlocks.lean ====
/-
  The third call: out = max((a · h) · W2 + b2, 0), computed 512 rows at a time.

  Grid point t stages rows 512·t … 512·t+511 of a, the whole column h, the 1×2 row W2 and the 1×2 row of
  biases, and writes rows 512·t … 512·t+511 of the two-column result. The body takes the product a · h into a
  zero accumulator (one column), spreads that column over the two output columns, multiplies by the row W2
  spread over the 512 rows, adds the bias row spread likewise, and takes the maximum with zero: entry (p, q)
  of the block written at t is max((Σₖ a[512·t+p, k]·h[k, 0])·W2[0, q] + b2[0, q], 0), the restriction of
  `Gcn.outFactored` to the block's rows. The sixteen blocks tile the 8192 rows. Stated for any contents
  `V` of the buffers at the call's entry; the bias row is the 1×2 array the call stages.
-/
import proofs.«175287_g75419625718022_cont_9to1c4b_526_2_alg».proof.Proof.Gen.KernelIdeal.Frame
import proofs.«175287_g75419625718022_cont_9to1c4b_526_2_alg».proof.Proof.Gcn
import proofs.«175287_g75419625718022_cont_9to1c4b_526_2_alg».proof.Proof.LibRowOps
import proofs.«175287_g75419625718022_cont_9to1c4b_526_2_alg».proof.Proof.LibGridSum
import proofs.«175287_g75419625718022_cont_9to1c4b_526_2_alg».proof.Proof.FeatBlocks
import Idealize.ShloMosaic.Lib.ValueLayout
import Idealize.ShloMosaic.Lib.Pipeline.Value

set_option maxRecDepth 16384

noncomputable section

namespace Cert.KernelIdeal.Layers

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The body's stored value at (p, q). -/
theorem outPay_apply (x0 : FVec Ideal S512x8192 .f32) (x1 : FVec Ideal S8192x1 .f32) (x2 : FVec Ideal S1x2 .f32)
    (x3 : FVec Ideal S1x2 .f32) (p : Fin 512) (q : Fin 2) :
    k2_pay1 (F := Ideal) x0 x1 x2 x3 (ix2 p q)
      = max ((∑ k : Fin 8192, x0 (ix2 p k) * x1 (ix2 k (0 : Fin 1))) * x2 (ix2 (0 : Fin 1) q)
          + x3 (ix2 (0 : Fin 1) q)) 0 := by
  show max (broadcastTo S512x2
            (matmul dot_S512x8192_S8192x1_S512x1_1_0_0_1_n_n none x0 (shapeCast S8192x1 x1 shapeCasts_S8192x1_S8192x1)
              (constant (F := Ideal) S512x1 .f32 0x00000000#32)) broadcasts_S512x1_S512x2 (ix2 p q)
          * broadcastTo S512x2 x2 broadcasts_S1x2_S512x2 (ix2 p q)
        + broadcastTo S512x2 (shapeCast S1x2 x3 shapeCasts_S1x2_S1x2) broadcasts_S1x2_S512x2 (ix2 p q))
      (Ideal.ofBits .f32 0x00000000#32) = _
  rw [shapeCast_self, shapeCast_self, Ideal.ofBits_zero_f32, Cert.GridSum.column_spread_apply,
    broadcastTo_1b_ab_apply, broadcastTo_1b_ab_apply]
  refine congrArg (fun z => max (z * x2 (ix2 (0 : Fin 1) q) + x3 (ix2 (0 : Fin 1) q)) 0) ?_
  exact Cert.RowOps.plain_matmul_apply none x0 x1 p (0 : Fin 1)

/-- Where the blocks sit: a's and the result's row block is the grid coordinate, every other block index is 0. -/
theorem outIdx : ∀ t : Fin cfg2.N,
    win2_0.index t (0 : Fin 2) = win2_4.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 :=
  (by decide +kernel : ∀ t : Fin grid2.N, _)

/-- Every one of the 16 row blocks is some grid point's. -/
theorem outOnto : ∀ q0 : Fin 16, ∃ t : Fin cfg2.N, win2_4.index t = ![q0.val, 0] :=
  (by decide +kernel : ∀ q0 : Fin 16, ∃ t : Fin grid2.N, win2_4.index t = ![q0.val, 0])

/-- A value of the body's form at row i₀ and column i₁ is `Gcn.outFactored` there, the bias row given as a 1×2 array. -/
theorem outFactored_of_terms (A : S8192x8192.Idx → EReal) (H : S8192x1.Idx → EReal) (W : S1x2.Idx → EReal)
    (B : S1x2.Idx → EReal) (i : S8192x2.Idx) (f : Fin 8192 → EReal) (w b : EReal)
    (hf : ∀ k, f k = A (ix2 (i 0) k) * H (ix2 k (0 : Fin 1))) (hw : w = W (ix2 (0 : Fin 1) (i 1)))
    (hb : b = B (ix2 (0 : Fin 1) (i 1))) :
    max ((∑ k, f k) * w + b) 0 = Cert.Gcn.outFactored A H W (fun j => B (ix2 (0 : Fin 1) (j 0))) i := by
  subst hw hb
  rw [Finset.sum_congr rfl fun k _ => hf k]
  rfl

/-- What grid point t writes back is block t of `Gcn.outFactored` of a, h, W2 and the staged bias row. -/
theorem outFlushed (c : Dev nD) (t : Fin cfg2.N) :
    (dat2 V c).flushed 4 t
      = ((cfg2.win 4).blk t).view.read (Elt Ideal)
          (Cert.Gcn.outFactored (V c main_arg1) (V c main_call0_v2) (V c main_arg4)
            (fun j => V c main_call0_v3 (ix2 (0 : Fin 1) (j 0)))) := by
  show (cfg2.win 4).cut (grid2.coords t) ((dat2 V c).after 4 t) = _
  rw [after2_4]
  unfold out2_4
  rw [View.canon_unit_zero origin2]
  simp only [View.ld_unit_zero (S := S512x8192) origin2, View.ld_unit_zero (S := S8192x1) origin2,
    View.ld_unit_zero (S := S1x2) origin2]
  obtain ⟨e0, e1, e2, e3, e4, e5, e6, e7, e8⟩ := outIdx t
  funext j
  obtain ⟨p, q, rfl⟩ : ∃ (p : Fin 512) (q : Fin 2), j = ix2 p q := ⟨j 0, j 1, eq_ix2 j⟩
  show k2_pay1 (iblk2 V c 0 t) (iblk2 V c 1 t) (iblk2 V c 2 t) (iblk2 V c 3 t) (ix2 p q)
      = Cert.Gcn.outFactored (V c main_arg1) (V c main_call0_v2) (V c main_arg4)
          (fun j => V c main_call0_v3 (ix2 (0 : Fin 1) (j 0))) (((cfg2.win 4).blk t).view.emb (ix2 p q))
  have hw : iblk2 V c 2 t (ix2 (0 : Fin 1) q)
      = V c main_arg4 (ix2 (0 : Fin 1) (((cfg2.win 4).blk t).view.emb (ix2 p q) 1)) := by
    show V c main_arg4 (((cfg2.win 2).blk t).view.emb (ix2 (0 : Fin 1) q)) = _
    refine congrArg (V c main_arg4) (funext fun a => Fin.ext ?_)
    match a with
    | ⟨0, _⟩ =>
      show win2_2.index t (0 : Fin 2) * 1 + 1 * 0 = 0
      omega
    | ⟨1, _⟩ =>
      show win2_2.index t (1 : Fin 2) * 2 + 1 * q.val = win2_4.index t (1 : Fin 2) * 2 + 1 * q.val
      omega
  have hb : iblk2 V c 3 t (ix2 (0 : Fin 1) q)
      = V c main_call0_v3 (ix2 (0 : Fin 1) (((cfg2.win 4).blk t).view.emb (ix2 p q) 1)) := by
    show V c main_call0_v3 (((cfg2.win 3).blk t).view.emb (ix2 (0 : Fin 1) q)) = _
    refine congrArg (V c main_call0_v3) (funext fun a => Fin.ext ?_)
    match a with
    | ⟨0, _⟩ =>
      show win2_3.index t (0 : Fin 2) * 1 + 1 * 0 = 0
      omega
    | ⟨1, _⟩ =>
      show win2_3.index t (1 : Fin 2) * 2 + 1 * q.val = win2_4.index t (1 : Fin 2) * 2 + 1 * q.val
      omega
  have h0 : ∀ k : Fin 8192, iblk2 V c 0 t (ix2 p k)
      = V c main_arg1 (ix2 (((cfg2.win 4).blk t).view.emb (ix2 p q) 0) k) := by
    intro k
    show V c main_arg1 (((cfg2.win 0).blk t).view.emb (ix2 p k)) = _
    refine congrArg (V c main_arg1) (funext fun a => Fin.ext ?_)
    match a with
    | ⟨0, _⟩ =>
      show win2_0.index t (0 : Fin 2) * 512 + 1 * p.val = win2_4.index t (0 : Fin 2) * 512 + 1 * p.val
      omega
    | ⟨1, _⟩ =>
      show win2_0.index t (1 : Fin 2) * 8192 + 1 * k.val = k.val
      omega
  have h1 : ∀ k : Fin 8192, iblk2 V c 1 t (ix2 k (0 : Fin 1)) = V c main_call0_v2 (ix2 k (0 : Fin 1)) := by
    intro k
    show V c main_call0_v2 (((cfg2.win 1).blk t).view.emb (ix2 k (0 : Fin 1))) = _
    refine congrArg (V c main_call0_v2) (funext fun a => Fin.ext ?_)
    match a with
    | ⟨0, _⟩ =>
      show win2_1.index t (0 : Fin 2) * 8192 + 1 * k.val = k.val
      omega
    | ⟨1, _⟩ =>
      show win2_1.index t (1 : Fin 2) * 1 + 1 * 0 = 0
      omega
  refine (outPay_apply (iblk2 V c 0 t) (iblk2 V c 1 t) (iblk2 V c 2 t) (iblk2 V c 3 t) p q).trans ?_
  exact outFactored_of_terms (V c main_arg1) (V c main_call0_v2) (V c main_arg4) (V c main_call0_v3)
    (((cfg2.win 4).blk t).view.emb (ix2 p q)) _ _ _ (fun k => by rw [h0 k, h1 k]) hw hb

/-- An index of the result is in grid point t's block iff its row is among the block's 512 rows. -/
theorem outMem (t : Fin cfg2.N) (i : S8192x2.Idx) :
    i ∈ ((cfg2.win 4).blk t).view.set ↔ ∀ a : Fin 2, win2_4.index t a * S512x2.size a ≤ (i a).val
      ∧ (i a).val < win2_4.index t a * S512x2.size a + S512x2.size a := by
  show i ∈ ((View.whole main_v0).slice (win2_4.rect t)).set ↔ _
  rw [View.set_slice_whole, Rect.mem_set_unit]
  exact Iff.rfl

/-- Row r lies in block r / 512: the sixteen blocks cover the array. -/
theorem outCover (i : S8192x2.Idx) :
    ∃ t : Fin cfg2.N, (cfg2.win 4).flush t = true ∧ i ∈ ((cfg2.win 4).blk t).view.set := by
  have hi0 : (i 0).val < 8192 := (i 0).isLt
  have hi1 : (i 1).val < 2 := (i 1).isLt
  obtain ⟨t, ht⟩ := outOnto ⟨(i 0).val / 512, by omega⟩
  have q0 : win2_4.index t (0 : Fin 2) = (i 0).val / 512 := congrFun ht 0
  have q1 : win2_4.index t (1 : Fin 2) = 0 := congrFun ht 1
  refine ⟨t, flush2_4 t, ?_⟩
  rw [outMem]
  intro a
  match a with
  | ⟨0, _⟩ =>
    show win2_4.index t (0 : Fin 2) * 512 ≤ (i 0).val ∧ (i 0).val < win2_4.index t (0 : Fin 2) * 512 + 512
    omega
  | ⟨1, _⟩ =>
    show win2_4.index t (1 : Fin 2) * 2 ≤ (i 1).val ∧ (i 1).val < win2_4.index t (1 : Fin 2) * 2 + 2
    omega

/-- After the third call its result array is max((a · h) · W2 + b2, 0) of the arrays as the call found them. -/
theorem outArray (c : Dev nD) :
    (dat2 V c).arrAt 4 cfg2.N
      = Cert.Gcn.outFactored (V c main_arg1) (V c main_call0_v2) (V c main_arg4)
          (fun j => V c main_call0_v3 (ix2 (0 : Fin 1) (j 0))) :=
  (dat2 V c).arrAt_eq_of_cover 4 _ (fun t _ => outFlushed V c t) outCover

end Cert.KernelIdeal.Layers

end
-- ==== Proof.Boundaries.lean ====
/-
  The kernel's result as a function of the six argument arrays.

  The contents of the buffers at the six boundaries of the program (before call 1, after it, after the bias
  of layer 1 is viewed 1×1, after call 2, after the bias row of layer 2 is viewed 1×2, after call 3) are a
  fold from the launch memory. A call changes only its result array, a host stretch only the one buffer it
  writes; so each buffer a later call reads is walked back to the boundary where it was written:

    u  (read by call 2)  was written by call 1:  u  = x · W1                      of the launch x, W1
    h  (read by call 3)  was written by call 2:  h  = max(a · u + b1, 0)          of the launch a, b1 and that u
    out                  was written by call 3:  out = max((a · h) · W2 + b2, 0)  of the launch a, W2, b2 and that h

  and the 1×1 and 1×2 views of the biases read the launch b1 and b2 at their one and two entries.
-/
import proofs.«175287_g75419625718022_cont_9to1c4b_526_2_alg».proof.Proof.Gen.KernelIdeal.Frame
import proofs.«175287_g75419625718022_cont_9to1c4b_526_2_alg».proof.Proof.Gcn
import proofs.«175287_g75419625718022_cont_9to1c4b_526_2_alg».proof.Proof.FeatBlocks
import proofs.«175287_g75419625718022_cont_9to1c4b_526_2_alg».proof.Proof.HiddenBlocks
import proofs.«175287_g75419625718022_cont_9to1c4b_526_2_alg».proof.Proof.OutBlocks
import Idealize.ShloMosaic.Lib.StableHlo.Run
import Idealize.ShloMosaic.Lib.ValueLayout

set_option maxRecDepth 16384

noncomputable section

namespace Cert.KernelIdeal.Layers

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-! ## What a host stretch leaves alone -/

/-- The first host stretch writes only the 1×1 view of b1. -/
theorem stretch1_keeps (c : Dev nD) (b : Ref sig .tc) (hb : b ≠ main_call0_v1) :
    W2 m ρ c (Proc.devRef .tc b) = W1 m ρ c (Proc.devRef .tc b) := by
  refine StableHlo.after_of_forall_not_mem (b := Proc.devRef .tc b) _ _ (List.forall_iff_forall_mem.mp ?_)
  simp only [hostOps1, List.Forall, StableHlo.reshape_writes, Finset.mem_singleton]
  exact StableHlo.devRef_ne_of_ne hb

/-- The second host stretch writes only the 1×2 view of b2. -/
theorem stretch2_keeps (c : Dev nD) (b : Ref sig .tc) (hb : b ≠ main_call0_v3) :
    W4 m ρ c (Proc.devRef .tc b) = W3 m ρ c (Proc.devRef .tc b) := by
  refine StableHlo.after_of_forall_not_mem (b := Proc.devRef .tc b) _ _ (List.forall_iff_forall_mem.mp ?_)
  simp only [hostOps2, List.Forall, StableHlo.reshape_writes, Finset.mem_singleton]
  exact StableHlo.devRef_ne_of_ne hb

/-! ## After call 1 -/

theorem W1_a (c : Dev nD) : W1 m ρ c (Proc.devRef .tc main_arg1) = m ((c : Thread nD τ).loc main_arg1) :=
  W1_of_ne m ρ c main_arg1 (by decide)
theorem W1_b1 (c : Dev nD) : W1 m ρ c (Proc.devRef .tc main_arg3) = m ((c : Thread nD τ).loc main_arg3) :=
  W1_of_ne m ρ c main_arg3 (by decide)
theorem W1_w2 (c : Dev nD) : W1 m ρ c (Proc.devRef .tc main_arg4) = m ((c : Thread nD τ).loc main_arg4) :=
  W1_of_ne m ρ c main_arg4 (by decide)
theorem W1_b2 (c : Dev nD) : W1 m ρ c (Proc.devRef .tc main_arg5) = m ((c : Thread nD τ).loc main_arg5) :=
  W1_of_ne m ρ c main_arg5 (by decide)

/-- Call 1 leaves u = x · W1 of the launch arrays. -/
theorem W1_u (c : Dev nD) :
    W1 m ρ c (Proc.devRef .tc main_call0_v0)
      = Cert.Gcn.feat (m ((c : Thread nD τ).loc main_arg0)) (m ((c : Thread nD τ).loc main_arg2)) :=
  (W1_arr m ρ c 2).trans (featArray (V0 m ρ) c)

/-! ## After the first host stretch -/

theorem W2_a (c : Dev nD) : W2 m ρ c (Proc.devRef .tc main_arg1) = m ((c : Thread nD τ).loc main_arg1) :=
  (stretch1_keeps m ρ c main_arg1 (by decide)).trans (W1_a m ρ c)
theorem W2_w2 (c : Dev nD) : W2 m ρ c (Proc.devRef .tc main_arg4) = m ((c : Thread nD τ).loc main_arg4) :=
  (stretch1_keeps m ρ c main_arg4 (by decide)).trans (W1_w2 m ρ c)
theorem W2_b2 (c : Dev nD) : W2 m ρ c (Proc.devRef .tc main_arg5) = m ((c : Thread nD τ).loc main_arg5) :=
  (stretch1_keeps m ρ c main_arg5 (by decide)).trans (W1_b2 m ρ c)
theorem W2_u (c : Dev nD) :
    W2 m ρ c (Proc.devRef .tc main_call0_v0)
      = Cert.Gcn.feat (m ((c : Thread nD τ).loc main_arg0)) (m ((c : Thread nD τ).loc main_arg2)) :=
  (stretch1_keeps m ρ c main_call0_v0 (by decide)).trans (W1_u m ρ c)

/-- The 1×1 view of b1 holds b1's one entry. -/
theorem W2_bias (c : Dev nD) :
    W2 m ρ c (Proc.devRef .tc main_call0_v1) (ix2 (0 : Fin 1) (0 : Fin 1))
      = m ((c : Thread nD τ).loc main_arg3) (ix1 (0 : Fin 1)) := by
  have e : (W2 m ρ c (Proc.devRef .tc main_call0_v1) : S1x1.Idx → EReal)
      = shapeCast S1x1 (W1 m ρ c (Proc.devRef .tc main_arg3) : S1.Idx → EReal) shapeCasts_S1_S1x1 := by
    show StableHlo.after hostOps1 (W1 m ρ c) (Proc.devRef .tc main_call0_v1) = _
    after_results
    rfl
  rw [e, shapeCast_a_1a_apply, W1_b1]

/-! ## After call 2 -/

theorem W3_a (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_a m ρ c)
theorem W3_w2 (c : Dev nD) : W3 m ρ c (Proc.devRef .tc main_arg4) = m ((c : Thread nD τ).loc main_arg4) :=
  (W3_of_ne m ρ c main_arg4 (by decide)).trans (W2_w2 m ρ c)
theorem W3_b2 (c : Dev nD) : W3 m ρ c (Proc.devRef .tc main_arg5) = m ((c : Thread nD τ).loc main_arg5) :=
  (W3_of_ne m ρ c main_arg5 (by decide)).trans (W2_b2 m ρ c)

/-- Call 2 leaves h = max(a · u + b1, 0) of the launch a and b1 and of u = x · W1. -/
theorem W3_h (c : Dev nD) :
    W3 m ρ c (Proc.devRef .tc main_call0_v2)
      = Cert.Gcn.hidden (m ((c : Thread nD τ).loc main_arg1))
          (Cert.Gcn.feat (m ((c : Thread nD τ).loc main_arg0)) (m ((c : Thread nD τ).loc main_arg2)))
          (m ((c : Thread nD τ).loc main_arg3) (ix1 (0 : Fin 1))) := by
  refine (W3_arr m ρ c 3).trans ((hiddenArray (V2 m ρ) c).trans ?_)
  show Cert.Gcn.hidden (W2 m ρ c (Proc.devRef .tc main_arg1)) (W2 m ρ c (Proc.devRef .tc main_call0_v0))
      (W2 m ρ c (Proc.devRef .tc main_call0_v1) (ix2 (0 : Fin 1) (0 : Fin 1))) = _
  rw [W2_a, W2_u, W2_bias]

/-! ## After the second host stretch -/

theorem W4_a (c : Dev nD) : W4 m ρ c (Proc.devRef .tc main_arg1) = m ((c : Thread nD τ).loc main_arg1) :=
  (stretch2_keeps m ρ c main_arg1 (by decide)).trans (W3_a m ρ c)
theorem W4_w2 (c : Dev nD) : W4 m ρ c (Proc.devRef .tc main_arg4) = m ((c : Thread nD τ).loc main_arg4) :=
  (stretch2_keeps m ρ c main_arg4 (by decide)).trans (W3_w2 m ρ c)
theorem W4_h (c : Dev nD) :
    W4 m ρ c (Proc.devRef .tc main_call0_v2)
      = Cert.Gcn.hidden (m ((c : Thread nD τ).loc main_arg1))
          (Cert.Gcn.feat (m ((c : Thread nD τ).loc main_arg0)) (m ((c : Thread nD τ).loc main_arg2)))
          (m ((c : Thread nD τ).loc main_arg3) (ix1 (0 : Fin 1))) :=
  (stretch2_keeps m ρ c main_call0_v2 (by decide)).trans (W3_h m ρ c)

/-- The 1×2 view of b2 holds, at (0, q), b2's entry q. -/
theorem W4_biasRow (c : Dev nD) (q : Fin 2) :
    W4 m ρ c (Proc.devRef .tc main_call0_v3) (ix2 (0 : Fin 1) q)
      = m ((c : Thread nD τ).loc main_arg5) (ix1 q) := by
  have e : (W4 m ρ c (Proc.devRef .tc main_call0_v3) : S1x2.Idx → EReal)
      = shapeCast S1x2 (W3 m ρ c (Proc.devRef .tc main_arg5) : S2.Idx → EReal) shapeCasts_S2_S1x2 := by
    show StableHlo.after hostOps2 (W3 m ρ c) (Proc.devRef .tc main_call0_v3) = _
    after_results
    rfl
  rw [e, shapeCast_a_1a_apply, W3_b2]

/-! ## After call 3: the result -/

/-- The result buffer ends holding max((a · h) · W2 + b2, 0) with h = max(a · (x · W1) + b1, 0), of the launch arrays. -/
theorem W5_out (c : Dev nD) :
    W5 m ρ c (Proc.devRef .tc main_v0)
      = Cert.Gcn.outFactored (m ((c : Thread nD τ).loc main_arg1))
          (Cert.Gcn.hidden (m ((c : Thread nD τ).loc main_arg1))
            (Cert.Gcn.feat (m ((c : Thread nD τ).loc main_arg0)) (m ((c : Thread nD τ).loc main_arg2)))
            (m ((c : Thread nD τ).loc main_arg3) (ix1 (0 : Fin 1))))
          (m ((c : Thread nD τ).loc main_arg4)) (m ((c : Thread nD τ).loc main_arg5)) := by
  refine (W5_arr m ρ c 4).trans ((outArray (V4 m ρ) c).trans ?_)
  show Cert.Gcn.outFactored (W4 m ρ c (Proc.devRef .tc main_arg1)) (W4 m ρ c (Proc.devRef .tc main_call0_v2))
      (W4 m ρ c (Proc.devRef .tc main_arg4))
      (fun j => W4 m ρ c (Proc.devRef .tc main_call0_v3) (ix2 (0 : Fin 1) (j 0))) = _
  rw [W4_a, W4_h, W4_w2]
  refine congrArg (Cert.Gcn.outFactored _ _ _) (funext fun j => ?_)
  exact (W4_biasRow m ρ c (j 0)).trans (congrArg _ (eq_ix1 j).symm)

end Cert.KernelIdeal.Layers

end
-- ==== Proof.RefLayers.lean ====
/-
  The reference's result as a function of its six arguments.

  The reference is sixteen host operations: u = x · W1, a · u, the bias b1 spread over the 8192 rows and added,
  the maximum with zero (h), then h · W2 (8192×1 by 1×2), a · (h · W2), the bias row b2 spread and added, and
  the maximum with zero. Read one operation at a time, entry by entry, with each matrix product a sum over
  its contracted axis, this is `Gcn.feat`, `Gcn.hidden` and the NESTED last layer `Gcn.outNested`: the sum
  over the 8192 neighbours of a[r,k] times the one-term sum h[k,0]·W2[0,c].
-/
import proofs.«175287_g75419625718022_cont_9to1c4b_526_2_alg».proof.Proof.Gen.ReferenceIdeal.Read
import proofs.«175287_g75419625718022_cont_9to1c4b_526_2_alg».proof.Proof.Gcn

noncomputable section

namespace Cert.ReferenceIdeal.Layers

open Idealize.ShloMosaic Idealize.ShloMosaic.ValueIdx
open Cert.ReferenceIdeal Cert.ReferenceIdeal.Read

/-! ## The coordinates the products read -/

theorem lidx0 (i : S8192x1.Idx) (k : Fin 512) : lidx_main_v0 i k = ix2 (i 0) k :=
  funext fun a => Fin.ext (by match a with | ⟨0, _⟩ => rfl | ⟨1, _⟩ => rfl)
theorem ridx0 (i : S8192x1.Idx) (k : Fin 512) : ridx_main_v0 i k = ix2 k (i 1) :=
  funext fun a => Fin.ext (by match a with | ⟨0, _⟩ => rfl | ⟨1, _⟩ => rfl)
theorem lidx1 (i : S8192x1.Idx) (k : Fin 8192) : lidx_main_v1 i k = ix2 (i 0) k :=
  funext fun a => Fin.ext (by match a with | ⟨0, _⟩ => rfl | ⟨1, _⟩ => rfl)
theorem ridx1 (i : S8192x1.Idx) (k : Fin 8192) : ridx_main_v1 i k = ix2 k (i 1) :=
  funext fun a => Fin.ext (by match a with | ⟨0, _⟩ => rfl | ⟨1, _⟩ => rfl)
theorem lidx7 (i : S8192x2.Idx) (k : Fin 8192) : lidx_main_v7 i k = ix2 (i 0) k :=
  funext fun a => Fin.ext (by match a with | ⟨0, _⟩ => rfl | ⟨1, _⟩ => rfl)
theorem lidx6 (i : S8192x2.Idx) (k : Fin 8192) (j : Fin 1) : lidx_main_v6 (ridx_main_v7 i k) j = ix2 k j :=
  funext fun a => Fin.ext (by match a with | ⟨0, _⟩ => rfl | ⟨1, _⟩ => rfl)
theorem ridx6 (i : S8192x2.Idx) (k : Fin 8192) (j : Fin 1) : ridx_main_v6 (ridx_main_v7 i k) j = ix2 j (i 1) :=
  funext fun a => Fin.ext (by match a with | ⟨0, _⟩ => rfl | ⟨1, _⟩ => rfl)
theorem bias1 (i : S8192x1.Idx) : idx_main_v2 (idx_main_v3 i) = ix1 (0 : Fin 1) :=
  funext fun a => Fin.ext (by match a with | ⟨0, _⟩ => rfl)
theorem bias2 (i : S8192x2.Idx) : idx_main_v8 (idx_main_v9 i) = ix1 (i 1) :=
  funext fun a => Fin.ext (by match a with | ⟨0, _⟩ => rfl)

/-! ## The three layers -/

/-- The reference's first product is u = x · W1. -/
theorem ref_feat (x0 : S8192x512.Idx → EReal) (x2 : S512x1.Idx → EReal) :
    val_main_v0 (F := Ideal) x0 x2 = Cert.Gcn.feat x0 x2 := by
  funext i
  rw [val_main_v0_apply]
  unfold Cert.Gcn.feat Cert.Gcn.featAt
  refine Finset.sum_congr rfl fun k _ => ?_
  rw [lidx0, ridx0]
  rfl

/-- The reference's hidden layer is h = max(a · u + b1, 0). -/
theorem ref_hidden (x0 : S8192x512.Idx → EReal) (x1 : S8192x8192.Idx → EReal) (x2 : S512x1.Idx → EReal)
    (x3 : S1.Idx → EReal) :
    val_main_v5 (F := Ideal) x0 x1 x2 x3 = Cert.Gcn.hidden x1 (Cert.Gcn.feat x0 x2) (x3 (ix1 (0 : Fin 1))) := by
  funext i
  rw [val_main_v5_apply, val_main_v4_apply, val_main_v1_apply, val_main_v3_apply, val_main_v2_apply,
    val_main_call0_v0_apply, val_main_call0_cst_apply, ref_feat, bias1]
  show max ((∑ k : Fin 8192, x1 (lidx_main_v1 i k) * Cert.Gcn.feat x0 x2 (ridx_main_v1 i k)) + x3 (ix1 (0 : Fin 1)))
      (Ideal.ofBits .f32 0x00000000#32) = _
  rw [Ideal.ofBits_zero_f32]
  unfold Cert.Gcn.hidden Cert.Gcn.hiddenAt
  refine congrArg (fun z => max (z + x3 (ix1 (0 : Fin 1))) 0) (Finset.sum_congr rfl fun k _ => ?_)
  rw [lidx1, ridx1]
  rfl

/-- The reference's result is the nested last layer of a, h, W2 and b2. -/
theorem ref_out (x0 : S8192x512.Idx → EReal) (x1 : S8192x8192.Idx → EReal) (x2 : S512x1.Idx → EReal)
    (x3 : S1.Idx → EReal) (x4 : S1x2.Idx → EReal) (x5 : S2.Idx → EReal) :
    val_main_v11 (F := Ideal) x0 x1 x2 x3 x4 x5
      = Cert.Gcn.outNested x1 (Cert.Gcn.hidden x1 (Cert.Gcn.feat x0 x2) (x3 (ix1 (0 : Fin 1)))) x4 x5 := by
  funext i
  rw [val_main_v11_apply, val_main_v10_apply, val_main_v7_apply, val_main_v9_apply, val_main_v8_apply,
    val_main_call1_v0_apply, val_main_call1_cst_apply, bias2]
  show max ((∑ k : Fin 8192, x1 (lidx_main_v7 i k) * val_main_v6 (F := Ideal) x0 x1 x2 x3 x4 (ridx_main_v7 i k))
        + x5 (ix1 (i 1))) (Ideal.ofBits .f32 0x00000000#32) = _
  rw [Ideal.ofBits_zero_f32]
  unfold Cert.Gcn.outNested Cert.Gcn.outNestedAt
  refine congrArg (fun z => max (z + x5 (ix1 (i 1))) 0) (Finset.sum_congr rfl fun k _ => ?_)
  rw [lidx7, val_main_v6_apply, ref_hidden]
  refine congrArg (x1 (ix2 (i 0) k) * ·) (Finset.sum_congr rfl fun j _ => ?_)
  rw [lidx6, ridx6]
  rfl

end Cert.ReferenceIdeal.Layers

end
-- ==== Proof.RealInputs.lean ====
/-
  Finite inputs are real inputs.

  The precondition is the conjunction, over the six float arguments, of "every entry's absolute value is below
  +∞". On the extended reals |x| = max(x, −x), and max(x, −x) < ⊤ excludes both infinities (at ⊤ the maximum is
  ⊤, at ⊥ it is −⊥ = ⊤), so every entry of every argument is a real number. The conjunction is a chain of five
  binary "and"s of six all-entries reductions, each of which gives its comparison at every index.
-/
import proofs.«175287_g75419625718022_cont_9to1c4b_526_2_alg».proof.Pre_finite_inputs
import proofs.«175287_g75419625718022_cont_9to1c4b_526_2_alg».proof.Proof.Gen.Pre_finite_inputs
import proofs.«175287_g75419625718022_cont_9to1c4b_526_2_alg».proof.Proof.Gcn
import Idealize.ShloMosaic.Lib.ReduceAll
import Idealize.ShloMosaic.Lib.Affine
import Idealize.ShloMosaic.Lib.ValueIdx

noncomputable section

namespace Cert.Pre_finite_inputs.Reals

open Idealize.ShloMosaic Idealize.ShloMosaic.ValueIdx
open Cert.Pre_finite_inputs Cert.Gcn

instance : Subsingleton S_.Idx := ⟨fun a b => funext fun d => d.elim0⟩

/-- An extended real whose absolute value is below +∞ is a real number. -/
theorem isReal_of_abs_lt (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hbit : BitVec.ofBool (decide (max x (-x) < ⊤)) = 1#1 := h
  have hlt : max x (-x) < ⊤ := by
    by_contra hn
    rw [decide_eq_false hn] at hbit
    exact absurd hbit (by decide)
  refine ⟨x.toReal, (EReal.coe_toReal ?_ ?_).symm⟩
  · rintro rfl; simp at hlt
  · rintro rfl; simp at hlt

/-- Under the precondition every entry of x, a, W1, b1, W2 and b2 is real. -/
theorem inputs_real {x0 : FVec Ideal S8192x512 .f32} {x1 : FVec Ideal S8192x8192 .f32} {x2 : FVec Ideal S512x1 .f32}
    {x3 : FVec Ideal S1 .f32} {x4 : FVec Ideal S1x2 .f32} {x5 : FVec Ideal S2 .f32}
    (h : fn (F := Ideal) x0 x1 x2 x3 x4 x5 = fun _ => 1#1) :
    (∀ i, IsReal (x0 i)) ∧ (∀ i, IsReal (x1 i)) ∧ (∀ i, IsReal (x2 i)) ∧ (∀ i, IsReal (x3 i))
      ∧ (∀ i, IsReal (x4 i)) ∧ (∀ i, IsReal (x5 i)) := by
  have h0 := congrFun h ix0
  dsimp only [fn, fn_part1] at h0
  obtain ⟨h01234, h5⟩ := IntOp.andi_eq_one.mp h0
  obtain ⟨h0123, h4⟩ := IntOp.andi_eq_one.mp h01234
  obtain ⟨h012, h3⟩ := IntOp.andi_eq_one.mp h0123
  obtain ⟨h01, h2⟩ := IntOp.andi_eq_one.mp h012
  obtain ⟨h0', h1⟩ := IntOp.andi_eq_one.mp h01
  exact ⟨fun i => isReal_of_abs_lt _ (Host.reduce_andi_all _ _ _ _ _ h0' i),
    fun i => isReal_of_abs_lt _ (Host.reduce_andi_all _ _ _ _ _ h1 i),
    fun i => isReal_of_abs_lt _ (Host.reduce_andi_all _ _ _ _ _ h2 i),
    fun i => isReal_of_abs_lt _ (Host.reduce_andi_all _ _ _ _ _ h3 i),
    fun i => isReal_of_abs_lt _ (Host.reduce_andi_all _ _ _ _ _ h4 i),
    fun i => isReal_of_abs_lt _ (Host.reduce_andi_all _ _ _ _ _ h5 i)⟩

end Cert.Pre_finite_inputs.Reals

end
-- ==== Proof.lean ====
/-
  A two-layer graph convolution on a dense 8192×8192 adjacency a, features x (8192×512), weights W1 (512×1),
  W2 (1×2) and biases b1, b2:

      h   = max(a · (x · W1) + b1, 0)        out = max(a · (h · W2) + b2, 0).

  The kernel computes it in three calls — u = x · W1 in blocks of 1024 rows; h = max(a · u + b1, 0) in blocks of
  512 rows; out = max((a · h) · W2 + b2, 0) in blocks of 512 rows — using that h has ONE column, so h · W2 is a
  rank-one matrix and a · (h · W2) = (a · h) · W2: the second layer needs one matrix–vector product against a,
  not a product with an 8192×2 matrix. The reference computes the nested form with two matrix products.

  On the extended reals the two agree entry by entry once the entries are real numbers:
  Σₖ a[r,k]·(h[k]·W2[0,c]) = (Σₖ a[r,k]·h[k])·W2[0,c] moves a factor across a sum of 8192 terms, which is
  distributivity and fails at infinities of both signs. The precondition (every input finite) makes every
  entry of x, a, W1, b1 and W2 real, hence every entry of h, and the law is then the one of ℝ.

  The pieces: Gcn (the layers as functions of the arrays, and the law), FeatBlocks / HiddenBlocks / OutBlocks
  (what each call leaves in its result array, from the blocks its grid points write), Boundaries (the buffers
  each call reads, walked back to the launch memory: the kernel's result as a function of the six arguments),
  KernelRun (the kernel's run with the result named), RefLayers (the reference's sixteen operations read entry
  by entry), RealInputs (the precondition gives real entries). The three programs' runs terminate without a
  fault and leave the arguments unchanged (the frames); the idealized kernel is the kernel's own text read on
  the extended reals, nothing rewritten (preserves).
-/
import proofs.«175287_g75419625718022_cont_9to1c4b_526_2_alg».proof.Defs
import proofs.«175287_g75419625718022_cont_9to1c4b_526_2_alg».proof.Proof.Gen.Kernel
import proofs.«175287_g75419625718022_cont_9to1c4b_526_2_alg».proof.Proof.Gen.Kernel.Frame
import proofs.«175287_g75419625718022_cont_9to1c4b_526_2_alg».proof.Proof.Gen.KernelIdeal
import proofs.«175287_g75419625718022_cont_9to1c4b_526_2_alg».proof.Proof.Gen.KernelIdeal.Frame
import proofs.«175287_g75419625718022_cont_9to1c4b_526_2_alg».proof.Proof.Gen.ReferenceIdeal
import proofs.«175287_g75419625718022_cont_9to1c4b_526_2_alg».proof.Proof.Gen.Pre_finite_inputs
import proofs.«175287_g75419625718022_cont_9to1c4b_526_2_alg».proof.Proof.Gen.ReferenceIdeal.Run
import proofs.«175287_g75419625718022_cont_9to1c4b_526_2_alg».proof.Proof.Gen.ReferenceIdeal.Read
import proofs.«175287_g75419625718022_cont_9to1c4b_526_2_alg».proof.Proof.Gcn
import proofs.«175287_g75419625718022_cont_9to1c4b_526_2_alg».proof.Proof.KernelRun
import proofs.«175287_g75419625718022_cont_9to1c4b_526_2_alg».proof.Proof.Boundaries
import proofs.«175287_g75419625718022_cont_9to1c4b_526_2_alg».proof.Proof.RefLayers
import proofs.«175287_g75419625718022_cont_9to1c4b_526_2_alg».proof.Proof.RealInputs

noncomputable section

namespace Cert.Proof

open Idealize.ShloMosaic Idealize.ShloMosaic.ValueIdx Idealize.SL.Sem

/-- The kernel as printed runs to the end and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Kernel and reference, from memories agreeing on the six arguments, end with the same 8192×2 result: the
    kernel's is the factored last layer of the arguments, the reference's the nested one, and on the real
    entries the precondition gives they are one array. -/
theorem algebraic : Cert.algebraic_KernelIdeal_ReferenceIdeal := by
  intro m ρ m' ρ' hpre hagree
  refine ⟨fun c => Cert.Gcn.outFactored (m ((c.tc : Thread Cert.KernelIdeal.nD Cert.KernelIdeal.τ).loc Cert.KernelIdeal.main_arg1))
      (Cert.Gcn.hidden (m ((c.tc : Thread Cert.KernelIdeal.nD Cert.KernelIdeal.τ).loc Cert.KernelIdeal.main_arg1))
        (Cert.Gcn.feat (m ((c.tc : Thread Cert.KernelIdeal.nD Cert.KernelIdeal.τ).loc Cert.KernelIdeal.main_arg0))
          (m ((c.tc : Thread Cert.KernelIdeal.nD Cert.KernelIdeal.τ).loc Cert.KernelIdeal.main_arg2)))
        (m ((c.tc : Thread Cert.KernelIdeal.nD Cert.KernelIdeal.τ).loc Cert.KernelIdeal.main_arg3) (ix1 (0 : Fin 1))))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Layers.W5_out m ρ c), (h c).2⟩)
      (Cert.KernelIdeal.Layers.run_named (F := Ideal) m ρ)
  · refine (θ_run Cert.ReferenceIdeal.defs _ _).mono (fun r h c => ⟨?_, (h c).2⟩)
      (Cert.ReferenceIdeal.Value.run (F := Ideal) m' ρ')
    obtain ⟨r0, r1, r2, r3, r4, -⟩ := Cert.Pre_finite_inputs.Reals.inputs_real (hpre c)
    rw [(h c).1, Cert.ReferenceIdeal.Read.val_main_v11_eq, Cert.ReferenceIdeal.Layers.ref_out,
      (hagree c).1, (hagree c).2.1, (hagree c).2.2.1, (hagree c).2.2.2.1, (hagree c).2.2.2.2.1, (hagree c).2.2.2.2.2]
    exact Cert.Gcn.outNested_eq_outFactored _ r1 (Cert.Gcn.hidden_real r1 (Cert.Gcn.feat_real r0 r2) (r3 _)) r4

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
